-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.FiniteInputs.lean ====
/-
  The precondition `finite_inputs` read back. The printed predicate takes, for each of the three float inputs, the
  absolute value of every entry, compares it (ordered less-than) with the word 0x7F800000 — the pattern of +∞ —
  broadcast over the input's shape, reduces the resulting `i1` array by `and` over all axes, and joins the three
  results by `and`. At the ideal reading an entry is an extended real `x`, its absolute value is `max x (-x)`, and
  `max x (-x) < ⊤` fails exactly at `x = ⊤` and `x = ⊥`: so the predicate being 1 says every entry of every input is
  the coercion of a real number.
-/
import proofs.«105649_j2224793060101_2_alg».proof.Pre_finite_inputs
import proofs.«105649_j2224793060101_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Idealize.ShloMosaic.ValueIdx
open Cert.Pre_finite_inputs Cert.Pre_finite_inputs.Gen

/-- The scalar shape has one index. -/
instance subsingleton_S_ : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- An extended real whose absolute value `max x (-x)` is below +∞ is a real number: at `⊤` the maximum is `⊤`, and at
    `⊥` the negation is `⊤`. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  have hlt : max x (-x) < ⊤ := of_decide_eq_true h
  induction x using EReal.rec with
  | bot => exact absurd hlt (by simp)
  | coe r => exact ⟨r, rfl⟩
  | top => exact absurd hlt (by simp)

/-- One entry of the compared array: the comparison of `|a i|` with the broadcast +∞ being 1 makes `a i` real. -/
theorem real_of_cmp {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    ∃ r : ℝ, a i = (r : EReal) :=
  real_of_abs_lt (a i) h

variable [Facts]

/-- THE PRECONDITION DECODED: every entry of each of the three inputs is the coercion of a real number. -/
theorem real_of_pre (a0 a1 : FVec Ideal S4096x4096 .f32) (a2 : FVec Ideal S4096 .f32)
    (h : Cert.Pre_finite_inputs.fn (F := Ideal) a0 a1 a2 = fun _ => 1#1) :
    (∀ i, ∃ x : ℝ, a0 i = (x : EReal)) ∧ (∀ i, ∃ x : ℝ, a1 i = (x : EReal)) ∧ (∀ i, ∃ x : ℝ, a2 i = (x : EReal)) := by
  have e := congrFun h ix0
  dsimp only [Cert.Pre_finite_inputs.fn] at e
  obtain ⟨e01, e2⟩ := IntOp.andi_eq_one.1 e
  obtain ⟨e0, e1⟩ := IntOp.andi_eq_one.1 e01
  exact ⟨fun i => real_of_cmp _ a0 i (Host.reduce_andi_all _ _ _ _ ix0 e0 i),
    fun i => real_of_cmp _ a1 i (Host.reduce_andi_all _ _ _ _ ix0 e1 i),
    fun i => real_of_cmp _ a2 i (Host.reduce_andi_all _ _ _ _ ix0 e2 i)⟩

end Cert.FiniteInputs

end
-- ==== Proof.Spec.lean ====
/-
  The quantized linear layer as ONE function of its three inputs, at the ideal reading of floats (an entry is an
  extended real, every operation exact).

  `quant x` rounds `x` to the nearest multiple of 2⁻⁸: multiply by the scale 2⁸, round to the nearest integer with ties
  to even, divide by the scale again. The layer's entry at row `r` and column `c` is
      quant (quant (∑ₖ A[r,k] · W[k,c]) + quant b[c]),
  the sum over all 4096 positions of the contracted axis. Both programs carry the scale as the same 32-bit word, which is
  kept as that word here: nothing below depends on its value.
-/
import Idealize.ShloMosaic.PureOps.Ideal
import Idealize.ShloMosaic.Lib.ValueIdx

noncomputable section

namespace Cert.QuantLayer

open Idealize.ShloMosaic Idealize.ShloMosaic.ValueIdx

/-- The scale 2⁸, as the f32 word both programs multiply and divide by. -/
abbrev scale : EReal := Ideal.ofBits .f32 0x43800000#32

/-- Rounding to the fixed-point grid: scale up, round to the nearest integer (ties to even), scale down. -/
def quant (x : EReal) : EReal := Ideal.div (Ideal.liftRound Ideal.roundHalfEven (x * scale)) scale

/-- The layer's result at an index: the product entry and the bias entry each rounded, added, and rounded again. -/
def layer (A W : (⟨2, ![4096, 4096]⟩ : Shape).Idx → EReal) (b : (⟨1, ![4096]⟩ : Shape).Idx → EReal) :
    (⟨2, ![4096, 4096]⟩ : Shape).Idx → EReal :=
  fun i => quant (quant (∑ k : Fin 4096, A (ix2 (i 0) k) * W (ix2 k (i 1))) + quant (b (ix1 (i 1))))

end Cert.QuantLayer

end
-- ==== Proof.RefLayer.lean ====
/-
  The reference program computes the specification. Read one operation at a time, its last stage at an index `i` is
      div (round (( div (round (dot i · s)) s + (div (round (b · s)) s)(i 1) ) · s)) s
  with `s` the scale word, where: the host's rounding is round-to-nearest with ties to even, which at the ideal reading
  is the same function on extended reals as the kernel's (`Ideal.liftRound Ideal.roundHalfEven`); its `dot_general`
  at `i` is the sum over the 4096 positions `k` of the contracted axis of the left operand at `(i 0, k)` times the right
  operand at `(k, i 1)`; and the bias is scaled, rounded and scaled back as a vector of 4096 entries, and only then
  broadcast along the rows, so that the entry added at `i` is the rounded bias at column `i 1`. That is
  `Cert.QuantLayer.layer` of the three arguments, entry by entry.
-/
import proofs.«105649_j2224793060101_2_alg».proof.Proof.Spec
import proofs.«105649_j2224793060101_2_alg».proof.Proof.Gen.ReferenceIdeal.Read

noncomputable section

namespace Cert.ReferenceIdeal.RefLayer

open Cert.ReferenceIdeal Cert.ReferenceIdeal.Read Idealize.ShloMosaic Idealize.ShloMosaic.ValueIdx Idealize.SL.Sem
open scoped BigOperators

/-- The left operand's index of the contraction at result index `i` and position `k`: row `i 0`, column `k`. -/
theorem lidx_eq (i : S4096x4096.Idx) (k : Fin 4096) : lidx_main_v0 i k = ix2 (i 0) k :=
  funext fun a => Fin.ext (by match a with | ⟨0, _⟩ => rfl | ⟨1, _⟩ => rfl)

/-- The right operand's: row `k`, column `i 1`. -/
theorem ridx_eq (i : S4096x4096.Idx) (k : Fin 4096) : ridx_main_v0 i k = ix2 k (i 1) :=
  funext fun a => Fin.ext (by match a with | ⟨0, _⟩ => rfl | ⟨1, _⟩ => rfl)

/-- The two broadcasts of the bias, [4096] → [1, 4096] → [4096, 4096], read result index `i` at column `i 1`. -/
theorem bidx_eq (i : S4096x4096.Idx) : idx_main_v11 (idx_main_v12 i) = ix1 (i 1) :=
  funext fun a => Fin.ext (by match a with | ⟨0, _⟩ => rfl)

/-- THE REFERENCE IS THE LAYER: the last stage of the reference program, as a whole array, is `layer` of its inputs. -/
theorem ref_eq_layer (x0 x1 : (⟨S4096x4096, .f32⟩ : BufTy).Contents (Elt Ideal))
    (x2 : (⟨S4096, .f32⟩ : BufTy).Contents (Elt Ideal)) :
    val_main_v18 (F := Ideal) x0 x1 x2 = Cert.QuantLayer.layer x0 x1 x2 := by
  funext i
  rw [val_main_v18_apply, val_main_v16_apply, val_main_v15_apply, val_main_v13_apply, val_main_v5_apply,
    val_main_v3_apply, val_main_v2_apply, val_main_v0_apply, val_main_v12_apply, val_main_v11_apply,
    val_main_v10_apply, val_main_v8_apply, val_main_v7_apply, val_main_v17_apply, val_main_cst_4_apply,
    val_main_v14_apply, val_main_cst_3_apply, val_main_v4_apply, val_main_cst_0_apply, val_main_v1_apply,
    val_main_cst_apply, val_main_v9_apply, val_main_cst_2_apply, val_main_v6_apply, val_main_cst_1_apply]
  simp only [lidx_eq, ridx_eq, bidx_eq, Ideal.hostDivf_def, Ideal.hostUnary_roundeven_def, Ideal.mulf_def,
    Ideal.addf_def, Ideal.ofBits_def]
  unfold Cert.QuantLayer.layer Cert.QuantLayer.quant
  rfl

end Cert.ReferenceIdeal.RefLayer

end
-- ==== Proof.Pieces.lean ====
/-
  What one grid step leaves behind, as values.

  The kernel visits 64 grid points (i, j, k), k fastest. At every point it loads a 1024×1024 tile of the left matrix and a
  1024×1024 tile of the right matrix and adds their product (spelt as three partial products) to a 1024×1024 running
  block kept between points. At k = 0 the running block is first set to zero; at k = 3 the finished block is rounded,
  joined with the rounded bias row and rounded again, and stored as the output tile.

  The statements below read the stores each of the three control cases makes back as plain functions of the loaded tiles
  and of the running block the point before left: the running block after the step, and (last step only) the output
  tile. They hold for any interpretation of the float operations; no arithmetic is opened here.
-/
import proofs.«105649_j2224793060101_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a two-axis block: every store and load of the body starts there. -/
theorem origin : (![0, 0] : Fin 2 → Nat) = fun _ => 0 := funext fun a => by fin_cases a <;> rfl

/-- A middle step (k = 1, 2): the running block `acc` becomes `acc + a·w` of the two loaded tiles — the body's one
    store into it, which covers it. -/
theorem running_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread, View.ld_unit_zero (S := S1024x1024) origin]

/-- The last step (k = 3) updates the running block in the same way before it reads it for the output. -/
theorem running_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread, View.ld_unit_zero (S := S1024x1024) origin]

/-- The last step's output tile: the epilogue applied to the running block as just updated and to the bias row — the
    load that feeds the epilogue reads back the whole of the store made a moment before. -/
theorem output_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

/-- The first step (k = 0): the running block is set to the zero block and then updated, so it ends at `0 + a·w`
    whatever it held before — the update's load reads back the zero block just stored. -/
theorem running_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

end Cert.KernelIdeal.Pieces

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.TileStep.lean ====
/-
  One grid step's arithmetic, at the ideal reading of floats and at one entry (p, c) of a 1024×1024 tile.

  The body forms the tile product of the left tile `a` and the right tile `w` as three partial products on the matrix
  unit: with `a' = a − a` and `w' = w − w` (what is left of an operand after its leading part is taken away: at the ideal
  reading the leading part is the operand itself, a change of float format being the identity), it computes
  `a·w + a·w' + a'·w`, each product the sum over the 1024 positions k of the contracted axis. An extended real minus
  itself is 0 exactly when it is a real number, so for REAL-valued tiles the second and third products vanish entry by
  entry and the step adds the plain product `∑ₖ a[p,k]·w[k,c]` to the running block. (At an infinite entry `x − x` is not 0:
  this is the one place where the inputs' finiteness is used.)

  The last step's epilogue is pointwise: the running block's entry is rounded to the fixed-point grid, the bias row's
  entry in the same column — the row is broadcast down the tile — likewise, the two are added and the sum rounded again.
-/
import proofs.«105649_j2224793060101_2_alg».proof.Proof.Gen.KernelIdeal.Skeleton
import proofs.«105649_j2224793060101_2_alg».proof.Proof.Spec
import proofs.«105649_j2224793060101_2_alg».proof.Proof.LibMatmulSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileStep

open Cert.KernelIdeal Cert.KernelIdeal.Gen Idealize.ShloMosaic Idealize.ShloMosaic.ValueIdx

/-! ## The matrix unit's product at an entry -/

/-- The left operand of the tile product is read at the result's row … -/
theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and at the contracted position; -/
theorem lhs_pos (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the contracted position … -/
theorem rhs_pos (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and at the result's column. -/
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A tile product into a zero accumulator, at entry (p, c): the sum over the 1024 contracted positions. -/
theorem product_entry (l r : FVec Ideal S1024x1024 .bf16) (p c : Fin 1024) :
    matmul dot_S1024x1024_S1024x1024_S1024x1024_1_0_0_1_n_n none l r (constant (F := Ideal) S1024x1024 .f32 0x00000000#32) (ix2 p c)
      = ∑ k : Fin 1024, l (ix2 p k) * r (ix2 k c) :=
  Cert.GraphConv.matmul_zero_sum dot_S1024x1024_S1024x1024_S1024x1024_1_0_0_1_n_n none rfl rfl lhs_row lhs_pos rhs_pos rhs_col l r (ix2 p c)

/-! ## The two vanishing products -/

/-- A sum of products whose right factors are a real number minus itself is zero. -/
theorem sum_mul_sub_self {n : ℕ} (f g : Fin n → EReal) (hg : ∀ k, ∃ x : ℝ, g k = (x : EReal)) :
    ∑ k : Fin n, f k * (g k - g k) = 0 :=
  Finset.sum_eq_zero fun k _ => by
    obtain ⟨x, hx⟩ := hg k
    rw [hx, ← EReal.coe_sub, sub_self, EReal.coe_zero, mul_zero]

/-- A sum of products whose left factors are a real number minus itself is zero. -/
theorem sum_sub_self_mul {n : ℕ} (f g : Fin n → EReal) (hf : ∀ k, ∃ x : ℝ, f k = (x : EReal)) :
    ∑ k : Fin n, (f k - f k) * g k = 0 :=
  Finset.sum_eq_zero fun k _ => by
    obtain ⟨x, hx⟩ := hf k
    rw [hx, ← EReal.coe_sub, sub_self, EReal.coe_zero, zero_mul]

/-! ## The three stores at an entry -/

/-- The block stored at the first step of a run is zero at every entry. -/
theorem zero_entry (j : S1024x1024.Idx) : k0_pay1 (F := Ideal) j = 0 := by
  unfold k0_pay1
  rw [shapeCast_self]
  show Ideal.ofBits .f32 0x00000000#32 = 0
  exact Ideal.ofBits_zero_f32

/-- THE STEP: for real-valued tiles the running block's entry gains the tile product's entry, `∑ₖ a[p,k]·w[k,c]`. -/
theorem step_entry (a w acc : Vec Ideal S1024x1024 .f32) (ha : ∀ j, ∃ x : ℝ, a j = (x : EReal)) (hw : ∀ j, ∃ x : ℝ, w j = (x : EReal)) (p c : Fin 1024) :
    k0_pay2 (F := Ideal) a w acc (ix2 p c) = acc (ix2 p c) + ∑ k : Fin 1024, a (ix2 p k) * w (ix2 k c) := by
  unfold k0_pay2
  rw [shapeCast_self]
  rw [addf_apply, addf_apply, addf_apply, product_entry, product_entry, product_entry]
  show acc (ix2 p c) + ((∑ k : Fin 1024, a (ix2 p k) * w (ix2 k c) + ∑ k : Fin 1024, a (ix2 p k) * (w (ix2 k c) - w (ix2 k c)))
      + ∑ k : Fin 1024, (a (ix2 p k) - a (ix2 p k)) * w (ix2 k c)) = _
  rw [sum_mul_sub_self (fun k => a (ix2 p k)) (fun k => w (ix2 k c)) (fun k => hw _),
    sum_sub_self_mul (fun k => a (ix2 p k)) (fun k => w (ix2 k c)) (fun k => ha _), add_zero, add_zero]

/-- THE EPILOGUE at an entry: `quant (quant acc[p,c] + quant bias[0,c])`, the bias row read in the entry's column. -/
theorem epilogue_entry (acc : Vec Ideal S1024x1024 .f32) (brow : Vec Ideal S1x1024 .f32) (p c : Fin 1024) :
    k0_pay3 (F := Ideal) acc brow (ix2 p c)
      = Cert.QuantLayer.quant (Cert.QuantLayer.quant (acc (ix2 p c)) + Cert.QuantLayer.quant (brow (ix2 0 c))) := by
  unfold k0_pay3
  rw [shapeCast_self]
  have hb : ∀ (v : S1x1024.Idx → EReal), broadcastTo S1024x1024 v broadcasts_S1x1024_S1024x1024 (ix2 p c) = v (ix2 0 c) := fun v =>
    broadcastTo_apply v broadcasts_S1x1024_S1024x1024 (ix2 p c) (ix2 0 c) (fun a => match a with
      | ⟨0, _⟩ => by show 0 = if (1 : Nat) = 1 then 0 else _; rw [if_pos rfl]
      | ⟨1, _⟩ => by show c.val = if (1024 : Nat) = 1 then 0 else c.val; rw [if_neg (by decide)])
  show Ideal.div (Ideal.liftRound Ideal.roundHalfEven
      ((Ideal.div (Ideal.liftRound Ideal.roundHalfEven (acc (ix2 p c) * Cert.QuantLayer.scale)) Cert.QuantLayer.scale
        + broadcastTo S1024x1024 (fun j : S1x1024.Idx => Cert.QuantLayer.quant (brow j)) broadcasts_S1x1024_S1024x1024 (ix2 p c))
       * Cert.QuantLayer.scale)) Cert.QuantLayer.scale = _
  rw [hb]
  rfl

end Cert.KernelIdeal.TileStep

end
-- ==== Proof.Blocks.lean ====
/-
  Which entries of which input a window's block holds at a grid point. The grid has 64 points `t = (i·4 + j)·4 + k` with
  `i, j, k < 4` and `k` fastest, so `i = t / 16`, `j = t / 4 % 4` and `k = t % 4`. The left matrix is staged in
  1024 × 1024 blocks with block index `(i, k)`: at point `t` the block holds rows `1024·i …` and columns `1024·k …` of
  the left matrix. The right matrix is staged with block index `(k, j)`: rows `1024·k …`, columns `1024·j …`. The bias,
  a vector of 4096 entries, is first reshaped by the host to one row of 4096 — entry `(0, q)` of the row is entry `q` of
  the vector, both having row-major position `q` — and that row is staged in [1, 1024] blocks with block index `(0, j)`:
  the block holds entries `1024·j …` of the bias. A block's coordinate on an axis is always the block index times the
  block's extent plus the coordinate inside the block.
-/
import proofs.«105649_j2224793060101_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- Position `r` inside block `b` of an axis of 4096 positions cut into four blocks of 1024. -/
abbrev pos (b : Nat) (hb : b < 4) (r : Nat) (hr : r < 1024) : Fin 4096 := ⟨1024 * b + r, by omega⟩

/-- A grid point is below 64. -/
theorem t_lt (t : Fin cfg0.N) : t.val < 64 := lt_of_lt_of_eq t.isLt N_0

/-- The three block coordinates of a point are below 4. -/
theorem i_lt (t : Fin cfg0.N) : t.val / 16 < 4 := by have := t_lt t; omega
theorem j_lt (t : Fin cfg0.N) : t.val / 4 % 4 < 4 := by omega
theorem k_lt (t : Fin cfg0.N) : t.val % 4 < 4 := by omega

/-- The left matrix's block index at point `t` is `(i, k) = (t / 16, t % 4)` — decided over the grid. -/
theorem idx_left : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)

/-- The right matrix's is `(k, j) = (t % 4, t / 4 % 4)`. -/
theorem idx_right : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)

/-- The bias row's is `(0, j) = (0, t / 4 % 4)`. -/
theorem idx_bias : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)

/-- THE LEFT BLOCK at point `t`: entry `y` is the left matrix at row `1024·(t / 16) + y 0`, column `1024·(t % 4) + y 1`. -/
theorem left_block (c : Dev nD) (t : Fin cfg0.N) :
    (iblk m c 0 t : Vec F S1024x1024 .f32) = fun y => m ((c : Thread nD τ).loc main_arg0)
      (ix2 (pos (t.val / 16) (i_lt t) (y 0).val (idx2_lt0 y)) (pos (t.val % 4) (k_lt t) (y 1).val (idx2_lt1 y))) := by
  funext y
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * (y 0).val = 1024 * (t.val / 16) + (y 0).val; rw [(idx_left t).1]; omega
  | ⟨1, _⟩ => show win0_0.index t 1 * 1024 + 1 * (y 1).val = 1024 * (t.val % 4) + (y 1).val; rw [(idx_left t).2]; omega

/-- THE RIGHT BLOCK at point `t`: entry `y` is the right matrix at row `1024·(t % 4) + y 0`, column `1024·(t / 4 % 4) + y 1`. -/
theorem right_block (c : Dev nD) (t : Fin cfg0.N) :
    (iblk m c 1 t : Vec F S1024x1024 .f32) = fun y => m ((c : Thread nD τ).loc main_arg1)
      (ix2 (pos (t.val % 4) (k_lt t) (y 0).val (idx2_lt0 y)) (pos (t.val / 4 % 4) (j_lt t) (y 1).val (idx2_lt1 y))) := by
  funext y
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * (y 0).val = 1024 * (t.val % 4) + (y 0).val; rw [(idx_right t).1]; omega
  | ⟨1, _⟩ => show win0_1.index t 1 * 1024 + 1 * (y 1).val = 1024 * (t.val / 4 % 4) + (y 1).val; rw [(idx_right t).2]; omega

/-- The row the region finds in `main_v0` is the host's reshape of the bias vector to one row of 4096. -/
theorem V_bias (c : Dev nD) :
    (V m c main_v0 : S1x4096.Idx → Elt F .f32)
      = shapeCast S1x4096 (m ((c : Thread nD τ).loc main_arg2)) shapeCasts_S4096_S1x4096 := by
  dsimp only [Gen.V, Gen.hostOps0]
  after_results
  rfl

/-- The reshaped row at `(0, q)` is the vector at `q`: both have row-major position `q`. -/
theorem row_apply (b : S4096.Idx → Elt F .f32) (h : S4096.ShapeCasts S1x4096) (j : S1x4096.Idx) (q : Fin 4096)
    (hq : (j 1).val = q.val) : shapeCast S1x4096 b h j = b (ix1 q) := by
  refine shapeCast_apply b h j (ix1 q) ?_
  rw [Shape.rowMajor_val_one, Shape.rowMajor_val_two]
  have h0 : (j 0).val = 0 := by have := idx2_lt0 j; omega
  show q.val = (j 0).val * 4096 + (j 1).val
  omega

/-- THE BIAS BLOCK at point `t`: entry `y` is the bias vector at `1024·(t / 4 % 4) + y 1`. -/
theorem bias_block (c : Dev nD) (t : Fin cfg0.N) :
    (iblk m c 2 t : Vec F S1x1024 .f32) = fun y => m ((c : Thread nD τ).loc main_arg2)
      (ix1 (pos (t.val / 4 % 4) (j_lt t) (y 1).val (idx2_lt1 y))) := by
  funext y
  unfold iblk
  rw [View.read_apply]
  show V m c main_v0 _ = _
  refine (congrFun (V_bias m c) _).trans ?_
  refine row_apply _ _ _ _ ?_
  show win0_2.index t 1 * 1024 + 1 * (y 1).val = 1024 * (t.val / 4 % 4) + (y 1).val
  rw [(idx_bias t).2]; omega

end Cert.KernelIdeal.Blocks

end
-- ==== Proof.LibSumSplit.lean ====
/-
  General lemmas, independent of any program: finite sums over positions written in mixed radix, and division of
  extended reals by a positive real.

  * a double sum over a < A, b < B of a function of a·B + b is the single sum over the positions k < A·B;
  * the sum over the positions k < Q·S·R·C, regrouped by the four digits (q, s, r, l) of k = ((S q + s) R + r) C + l,
    with the last digit l summed second and the digit s ranging over a range;
  * division by a positive real distributes over the sum of ANY two extended reals (it is the product with a positive
    real, which is monotone and keeps each infinity), although distributivity fails on the extended reals in general.
-/
import Idealize.ShloMosaic.PureOps.Ideal.Laws

noncomputable section

namespace Cert.LibSumSplit

open Idealize.ShloMosaic

/-- A double sum over a < A, b < B of a function of a·B + b is the single sum over k < A·B. -/
theorem sum_fin_mul {M : Type*} [AddCommMonoid M] (A B : ℕ) (F : ℕ → M) :
    ∑ a : Fin A, ∑ b : Fin B, F (a.val * B + b.val) = ∑ k : Fin (A * B), F k.val := by
  rw [← Equiv.sum_comp finProdFinEquiv (fun k : Fin (A * B) => F k.val), Fintype.sum_prod_type]
  refine Finset.sum_congr rfl fun a _ => Finset.sum_congr rfl fun b _ => ?_
  show F _ = F _
  congr 1
  show a.val * B + b.val = b.val + B * a.val
  rw [Nat.mul_comm, Nat.add_comm]

/-- The sum over all positions below Q·S·R·C, regrouped by the four digits (q, s, r, l) of a position
    k = ((S q + s) R + r) C + l, the digit l summed second. State it over variable extents and instantiate the numerals
    once: index types of literal size in the millions are slow to compare. -/
theorem total_split {M : Type*} [AddCommMonoid M] (Q S R C : ℕ) (f : ℕ → M) :
    ∑ k : Fin (Q * S * R * C), f k.val
      = ∑ q : Fin Q, ∑ l : Fin C, ∑ s ∈ Finset.range S, ∑ r : Fin R, f (((S * q.val + s) * R + r.val) * C + l.val) := by
  have e1 : ∑ k : Fin (Q * S * R * C), f k.val = ∑ a : Fin (Q * S * R), ∑ l : Fin C, f (a.val * C + l.val) :=
    (sum_fin_mul (Q * S * R) C f).symm
  have e2 : ∑ a : Fin (Q * S * R), ∑ l : Fin C, f (a.val * C + l.val)
      = ∑ n : Fin (Q * S), ∑ r : Fin R, ∑ l : Fin C, f ((n.val * R + r.val) * C + l.val) :=
    (sum_fin_mul (Q * S) R (fun a => ∑ l : Fin C, f (a * C + l.val))).symm
  have e3 : ∑ n : Fin (Q * S), ∑ r : Fin R, ∑ l : Fin C, f ((n.val * R + r.val) * C + l.val)
      = ∑ q : Fin Q, ∑ s : Fin S, ∑ r : Fin R, ∑ l : Fin C, f (((q.val * S + s.val) * R + r.val) * C + l.val) :=
    (sum_fin_mul Q S (fun n => ∑ r : Fin R, ∑ l : Fin C, f ((n * R + r.val) * C + l.val))).symm
  rw [e1, e2, e3]
  refine Finset.sum_congr rfl fun q _ => ?_
  have e4 : ∀ l : Fin C, ∑ s ∈ Finset.range S, ∑ r : Fin R, f (((S * q.val + s) * R + r.val) * C + l.val)
      = ∑ s : Fin S, ∑ r : Fin R, f (((q.val * S + s.val) * R + r.val) * C + l.val) := fun l => by
    rw [Finset.sum_range (fun s => ∑ r : Fin R, f (((S * q.val + s) * R + r.val) * C + l.val)), Nat.mul_comm S q.val]
  have e5 : ∑ l : Fin C, ∑ s ∈ Finset.range S, ∑ r : Fin R, f (((S * q.val + s) * R + r.val) * C + l.val)
      = ∑ l : Fin C, ∑ s : Fin S, ∑ r : Fin R, f (((q.val * S + s.val) * R + r.val) * C + l.val) :=
    Finset.sum_congr rfl fun l _ => e4 l
  calc ∑ s : Fin S, ∑ r : Fin R, ∑ l : Fin C, f (((q.val * S + s.val) * R + r.val) * C + l.val)
      = ∑ s : Fin S, ∑ l : Fin C, ∑ r : Fin R, f (((q.val * S + s.val) * R + r.val) * C + l.val) :=
        Finset.sum_congr rfl fun s _ => Finset.sum_comm
    _ = ∑ l : Fin C, ∑ s : Fin S, ∑ r : Fin R, f (((q.val * S + s.val) * R + r.val) * C + l.val) := Finset.sum_comm
    _ = _ := e5.symm

/-- Division by a positive real distributes over the sum of any two extended reals. -/
theorem div_pos_real_add {y : ℝ} (hy : 0 < y) (a b : EReal) :
    Ideal.div (a + b) (y : EReal) = Ideal.div a (y : EReal) + Ideal.div b (y : EReal) := by
  rw [Ideal.div_coe hy.ne', Ideal.div_coe hy.ne', Ideal.div_coe hy.ne']
  exact EReal.right_distrib_of_nonneg_of_ne_top (by exact_mod_cast (one_div_pos.mpr hy).le) (EReal.coe_ne_top _) a b

end Cert.LibSumSplit

end
-- ==== Proof.RunSum.lean ====
/-
  The contracted axis, tile by tile.

  A run of four consecutive grid points t − 3, …, t (t ≡ 3 mod 4) works on ONE output tile — rows 1024·(t/16) + p, columns
  1024·(t/4 mod 4) + c — and its s-th point contributes the products over the positions 1024·s + k (k < 1024) of the
  contracted axis. The four contributions together are the sum over all 4096 positions: position kk = 1024·s + k is
  position k of tile s, and a finite sum in a commutative monoid may be grouped by tiles.

  Entries are read by natural-number coordinates, zero outside the matrix, so that a point's contribution is a function
  of every natural number (its values past the grid are never used).
-/
import proofs.«105649_j2224793060101_2_alg».proof.Proof.LibSumSplit
import Idealize.ShloMosaic.Lib.ValueIdx

noncomputable section

namespace Cert.RunSum

open Idealize.ShloMosaic Idealize.ShloMosaic.ValueIdx

/-- A 4096×4096 matrix read at natural coordinates: its entry inside, zero outside. -/
def entry (X : (⟨2, ![4096, 4096]⟩ : Shape).Idx → EReal) (r k : ℕ) : EReal :=
  if h : r < 4096 ∧ k < 4096 then X (ix2 ⟨r, h.1⟩ ⟨k, h.2⟩) else 0

theorem entry_of_lt (X : (⟨2, ![4096, 4096]⟩ : Shape).Idx → EReal) (r k : ℕ) (hr : r < 4096) (hk : k < 4096) :
    entry X r k = X (ix2 ⟨r, hr⟩ ⟨k, hk⟩) := dif_pos ⟨hr, hk⟩

/-- What grid point `n` adds to entry `i` of the running block: the products over its 1024 positions of the contracted
    axis, the left matrix read in the point's row block, the right matrix in its column block. -/
def addend (A W : (⟨2, ![4096, 4096]⟩ : Shape).Idx → EReal) (n : ℕ) (i : (⟨2, ![1024, 1024]⟩ : Shape).Idx) : EReal :=
  ∑ k : Fin 1024, entry A (1024 * (n / 16) + (i 0).val) (1024 * (n % 4) + k.val)
    * entry W (1024 * (n % 4) + k.val) (1024 * (n / 4 % 4) + (i 1).val)

/-- THE RUN'S SUM: the four points of the run ending at `t` add up the products over all 4096 positions. -/
theorem run_sum (A W : (⟨2, ![4096, 4096]⟩ : Shape).Idx → EReal) (t : ℕ) (ht : t < 64) (h3 : t % 4 = 3)
    (i : (⟨2, ![1024, 1024]⟩ : Shape).Idx)
    (hR : 1024 * (t / 16) + (i 0).val < 4096) (hC : 1024 * (t / 4 % 4) + (i 1).val < 4096) :
    ∑ s ∈ Finset.range 4, addend A W (4 * (t / 4) + s) i
      = ∑ kk : Fin 4096, A (ix2 ⟨1024 * (t / 16) + (i 0).val, hR⟩ kk) * W (ix2 kk ⟨1024 * (t / 4 % 4) + (i 1).val, hC⟩) := by
  rw [Finset.sum_range]
  let F : ℕ → EReal := fun kk => entry A (1024 * (t / 16) + (i 0).val) kk * entry W kk (1024 * (t / 4 % 4) + (i 1).val)
  have e : ∀ s : Fin 4, addend A W (4 * (t / 4) + s.val) i = ∑ k : Fin 1024, F (s.val * 1024 + k.val) := by
    intro s
    have hs := s.isLt
    unfold addend
    rw [show (4 * (t / 4) + s.val) / 16 = t / 16 by omega, show (4 * (t / 4) + s.val) % 4 = s.val by omega,
      show (4 * (t / 4) + s.val) / 4 % 4 = t / 4 % 4 by omega]
    refine Finset.sum_congr rfl fun k _ => ?_
    show _ = entry A _ (s.val * 1024 + k.val) * entry W (s.val * 1024 + k.val) _
    rw [Nat.mul_comm s.val 1024]
  rw [Finset.sum_congr rfl fun s _ => e s]
  refine (Cert.LibSumSplit.sum_fin_mul 4 1024 F).trans ?_
  show ∑ kk : Fin 4096, entry A (1024 * (t / 16) + (i 0).val) kk.val * entry W kk.val (1024 * (t / 4 % 4) + (i 1).val) = _
  refine Finset.sum_congr rfl fun kk _ => ?_
  rw [entry_of_lt A _ _ hR kk.isLt, entry_of_lt W _ _ kk.isLt hC]

end Cert.RunSum

end
-- ==== Proof.Fold.lean ====
/-
  The running block after a run of four grid points.

  The kernel keeps a 1024×1024 running block between grid points. The first point of a run (k = 0) leaves in it
  `0 + P₀`, each later point `acc + Pₖ`, where `Pₖ` is the product of the point's left tile and right tile — for inputs
  all of whose entries are real numbers (the step's two correction products vanish only then). A point's tiles are
  entries of the two input matrices: rows 1024·i…, positions 1024·k… of the left one, positions 1024·k…, columns
  1024·j… of the right one. So after the last point of a run the running block's entry (p, c) is the sum over all 4096
  positions of the contracted axis of left[1024·i + p, ·] · right[·, 1024·j + c]: the fold of the run, unrolled at an entry
  as a sum over its points, then regrouped from four tiles of 1024 positions into one sum.
-/
import proofs.«105649_j2224793060101_2_alg».proof.Proof.Gen.KernelIdeal.Value
import proofs.«105649_j2224793060101_2_alg».proof.Proof.Pieces
import proofs.«105649_j2224793060101_2_alg».proof.Proof.TileStep
import proofs.«105649_j2224793060101_2_alg».proof.Proof.Blocks
import proofs.«105649_j2224793060101_2_alg».proof.Proof.RunSum
import Idealize.ShloMosaic.Lib.Pipeline.Value

noncomputable section

namespace Cert.KernelIdeal.Fold

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The left and the right matrix on core `c`, as launched. -/
abbrev lhs (c : Dev nD) : S4096x4096.Idx → EReal := m ((c : Thread nD τ).loc main_arg0)
abbrev rhs (c : Dev nD) : S4096x4096.Idx → EReal := m ((c : Thread nD τ).loc main_arg1)

/-- Every entry of the two matrices on core `c` is a real number. -/
def RealInputs (c : Dev nD) : Prop :=
  (∀ i, ∃ x : ℝ, lhs m c i = (x : EReal)) ∧ (∀ i, ∃ x : ℝ, rhs m c i = (x : EReal))

/-- The left and the right tile at a grid point, as vectors of the literal tile shape. -/
abbrev ltile (c : Dev nD) (t : Fin cfg0.N) : Vec Ideal S1024x1024 .f32 := iblk m c 0 t
abbrev rtile (c : Dev nD) (t : Fin cfg0.N) : Vec Ideal S1024x1024 .f32 := iblk m c 1 t

/-- A left tile's entries are entries of the left matrix: real. -/
theorem real_left (c : Dev nD) (hr : RealInputs m c) (t : Fin cfg0.N) (j : S1024x1024.Idx) :
    ∃ x : ℝ, ltile m c t j = (x : EReal) := by
  show ∃ x : ℝ, (iblk m c 0 t : Vec Ideal S1024x1024 .f32) j = (x : EReal)
  rw [Blocks.left_block]; exact hr.1 _

/-- A right tile's entries are entries of the right matrix: real. -/
theorem real_right (c : Dev nD) (hr : RealInputs m c) (t : Fin cfg0.N) (j : S1024x1024.Idx) :
    ∃ x : ℝ, rtile m c t j = (x : EReal) := by
  show ∃ x : ℝ, (iblk m c 1 t : Vec Ideal S1024x1024 .f32) j = (x : EReal)
  rw [Blocks.right_block]; exact hr.2 _

/-- The product of point `n`'s two tiles at an entry is the point's addend: the tiles' entries are the matrices' at the
    point's row block, position block and column block. -/
theorem tile_addend (c : Dev nD) (n : ℕ) (h : n < cfg0.N) (i : S1024x1024.Idx) :
    ∑ k : Fin 1024, ltile m c ⟨n, h⟩ (ix2 (i 0) k) * rtile m c ⟨n, h⟩ (ix2 k (i 1))
      = RunSum.addend (lhs m c) (rhs m c) n i := by
  unfold ltile rtile
  have hn : n < 64 := lt_of_lt_of_eq h N_0
  have hi0 := idx2_lt0 i
  have hi1 := idx2_lt1 i
  rw [Blocks.left_block, Blocks.right_block]
  unfold RunSum.addend
  refine Finset.sum_congr rfl fun k _ => ?_
  have hk := k.isLt
  rw [RunSum.entry_of_lt _ _ _ (by omega) (by omega), RunSum.entry_of_lt _ _ _ (by omega) (by omega)]

/-- A point that is not the first of its run adds its tile product to what the point before left. -/
theorem scratch_step (c : Dev nD) (hr : RealInputs m c) (n : ℕ) (h : n < cfg0.N) (h0 : ¬n % 4 = 0)
    (acc : Vec Ideal S1024x1024 .f32) (i : S1024x1024.Idx) :
    Value.scAt0_0 m c n h acc i = acc i + RunSum.addend (lhs m c) (rhs m c) n i := by
  obtain ⟨p, q, rfl⟩ : ∃ (p q : Fin 1024), i = ix2 p q := ⟨i 0, i 1, eq_ix2 i⟩
  unfold Value.scAt0_0
  rw [dif_neg h0]
  by_cases h1 : n % 4 = 3
  · rw [dif_pos h1]
    refine (congrFun (Pieces.running_last c _ _ _ _ _ _ _ _ _ _ _ _ _ _ _ _ _) (ix2 p q)).trans ?_
    refine (TileStep.step_entry (ltile m c ⟨n, h⟩) (rtile m c ⟨n, h⟩) acc (real_left m c hr ⟨n, h⟩) (real_right m c hr ⟨n, h⟩) p q).trans ?_
    exact congrArg (acc (ix2 p q) + ·) (tile_addend m c n h (ix2 p q))
  · rw [dif_neg h1]
    refine (congrFun (Pieces.running_mid c _ _ _ _ _ _ _ _ _ _ _ _ _ _ _ _ _) (ix2 p q)).trans ?_
    refine (TileStep.step_entry (ltile m c ⟨n, h⟩) (rtile m c ⟨n, h⟩) acc (real_left m c hr ⟨n, h⟩) (real_right m c hr ⟨n, h⟩) p q).trans ?_
    exact congrArg (acc (ix2 p q) + ·) (tile_addend m c n h (ix2 p q))

/-- The first point of a run leaves zero plus its tile product, whatever the running block held. -/
theorem scratch_reset (c : Dev nD) (hr : RealInputs m c) (b : ℕ) (h : b < cfg0.N) (h0 : b % 4 = 0)
    (old : Vec Ideal S1024x1024 .f32) (i : S1024x1024.Idx) :
    Value.scAt0_0 m c b h old i = 0 + RunSum.addend (lhs m c) (rhs m c) b i := by
  obtain ⟨p, q, rfl⟩ : ∃ (p q : Fin 1024), i = ix2 p q := ⟨i 0, i 1, eq_ix2 i⟩
  unfold Value.scAt0_0
  rw [dif_pos h0, dif_neg (by omega : ¬b % 4 = 3)]
  refine (congrFun (Pieces.running_first c _ _ _ _ _ _ _ _ _ _ _ _ _ _ _ _) (ix2 p q)).trans ?_
  refine (TileStep.step_entry (ltile m c ⟨b, h⟩) (rtile m c ⟨b, h⟩) (k0_pay1 (F := Ideal)) (real_left m c hr ⟨b, h⟩) (real_right m c hr ⟨b, h⟩) p q).trans ?_
  rw [TileStep.zero_entry]
  exact congrArg ((0 : EReal) + ·) (tile_addend m c b h (ix2 p q))

/-- THE RUNNING BLOCK after the last point `t` of a run: at entry `i` the sum over all 4096 contracted positions, the left
    matrix read in row `1024·(t/16) + i 0`, the right matrix in column `1024·(t/4 mod 4) + i 1`. -/
theorem scratch_after (c : Dev nD) (hr : RealInputs m c) (t : Fin cfg0.N) (h3 : t.val % 4 = 3) (i : S1024x1024.Idx) :
    (outsAt0 m c t.val t.isLt).2 i
      = ∑ kk : Fin 4096, lhs m c (ix2 (Blocks.pos (t.val / 16) (Blocks.i_lt t) (i 0).val (idx2_lt0 i)) kk)
          * rhs m c (ix2 kk (Blocks.pos (t.val / 4 % 4) (Blocks.j_lt t) (i 1).val (idx2_lt1 i))) := by
  have ht := Blocks.t_lt t
  refine (congrFun (Value.soutsAt0_0_eq m c t) i).trans ?_
  refine (Pipeline.accAt_add_apply (β := EReal) (fun n h => Value.scAt0_0 m c n h (VS0_0.read (Elt Ideal) VS0_0.junk)) (Value.scAt0_0 m c)
    (fun _ => 0) (RunSum.addend (lhs m c) (rhs m c)) (4 * (t.val / 4)) 3
    (fun h i => scratch_reset m c hr _ h (by omega) _ i)
    (fun n h acc i hb he => scratch_step m c hr n h (by omega) acc i)
    (t.val % 4) (by omega) _ i).trans ?_
  rw [h3, zero_add]
  exact RunSum.run_sum (lhs m c) (rhs m c) t.val ht h3 i _ _

end Cert.KernelIdeal.Fold

end
-- ==== Proof.OutBlocks.lean ====
/-
  Where the output window's blocks sit in the result. The result, a 4096 × 4096 array, is written back in 1024 × 1024
  blocks with block index `(i, j) = (t / 16, t / 4 % 4)` at grid point `t = (i·4 + j)·4 + k`, and only at the last
  point of each run of four, `k = 3`. Entry `y` of point `t`'s block sits at row `1024·i + y 0`, column `1024·j + y 1`
  of the result; and every index `(r, q)` of the result lies in the block of a point that writes back, the point
  `16·(r / 1024) + 4·(q / 1024) + 3`: the sixteen blocks tile the array.
-/
import proofs.«105649_j2224793060101_2_alg».proof.Proof.Blocks

set_option maxRecDepth 16384

noncomputable section

namespace Cert.KernelIdeal.OutBlocks

open Cert.KernelIdeal Cert.KernelIdeal.Gen
open Idealize.ShloMosaic Idealize.ShloMosaic.TcCoe Idealize.ShloMosaic.ValueIdx Idealize.SL.Sem

/-- The output's block index at point `t` is `(i, j) = (t / 16, t / 4 % 4)` — decided over the grid. -/
theorem idx_out : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-- Entry `y` of point `t`'s block is the result's entry at row `1024·(t / 16) + y 0`, column `1024·(t / 4 % 4) + y 1`:
    on each axis the block index times the block's extent plus the coordinate inside the block. -/
theorem out_emb (t : Fin cfg0.N) (y : S1024x1024.Idx) :
    ((cfg0.win 3).blk t).view.emb y
      = ix2 (Blocks.pos (t.val / 16) (Blocks.i_lt t) (y 0).val (idx2_lt0 y))
          (Blocks.pos (t.val / 4 % 4) (Blocks.j_lt t) (y 1).val (idx2_lt1 y)) := by
  funext a
  apply Fin.ext
  match a with
  | ⟨0, _⟩ => show win0_3.index t 0 * 1024 + 1 * (y 0).val = 1024 * (t.val / 16) + (y 0).val; rw [(idx_out t).1]; omega
  | ⟨1, _⟩ => show win0_3.index t 1 * 1024 + 1 * (y 1).val = 1024 * (t.val / 4 % 4) + (y 1).val; rw [(idx_out t).2]; omega

/-- An index of the result is in point `t`'s block iff each coordinate is in the block's range on its axis. -/
theorem mem_out_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- THE BLOCKS TILE THE RESULT: index `(r, q)` lies in the block of the point `16·(r / 1024) + 4·(q / 1024) + 3`, which
    is ≡ 3 (mod 4) and so writes its block back. -/
theorem out_cover : ∀ i : S4096x4096.Idx, ∃ t : Fin cfg0.N, (cfg0.win 3).flush t = true ∧ i ∈ ((cfg0.win 3).blk t).view.set := by
  intro i
  have hi0 : (i 0).val < 4096 := idx2_lt0 i
  have hi1 : (i 1).val < 4096 := idx2_lt1 i
  obtain ⟨t, ht⟩ : ∃ t : Fin cfg0.N, t.val = 16 * ((i 0).val / 1024) + 4 * ((i 1).val / 1024) + 3 :=
    ⟨⟨16 * ((i 0).val / 1024) + 4 * ((i 1).val / 1024) + 3, lt_of_lt_of_eq (by omega) N_0.symm⟩, rfl⟩
  refine ⟨t, (flush0_3 t).mpr (by omega), ?_⟩
  rw [mem_out_blk]
  intro a
  match a with
  | ⟨0, _⟩ =>
    show win0_3.index t 0 * 1024 ≤ (i 0).val ∧ (i 0).val < win0_3.index t 0 * 1024 + 1024
    rw [(idx_out t).1]; omega
  | ⟨1, _⟩ =>
    show win0_3.index t 1 * 1024 ≤ (i 1).val ∧ (i 1).val < win0_3.index t 1 * 1024 + 1024
    rw [(idx_out t).2]; omega

end Cert.KernelIdeal.OutBlocks

end
-- ==== Proof.Final.lean ====
/-
  The result array after the kernel's run, at the ideal reading of floats, for inputs whose matrix entries are real.

  Only the last point of each run of four grid points stores an output tile and has it written back. That tile is the
  epilogue of the running block as the point has just updated it — by the fold of the run, the full product's entries
  for the tile's rows and columns — and of the bias row's block, which holds the bias entries of the tile's columns.
  Entry y of the tile is therefore the layer's entry at the place where the tile's entry y sits in the result. The
  sixteen tiles written back cover the result, so the whole array ends at the layer of the three inputs.
-/
import proofs.«105649_j2224793060101_2_alg».proof.Proof.Fold
import proofs.«105649_j2224793060101_2_alg».proof.Proof.OutBlocks
import proofs.«105649_j2224793060101_2_alg».proof.Proof.Spec

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The bias vector on core `c`, as launched. -/
abbrev bias (c : Dev nD) : S4096.Idx → EReal := m ((c : Thread nD τ).loc main_arg2)

/-- What the result array holds after the run: the layer of the three inputs. -/
abbrev result (c : Dev nD) : Buf (Elt Ideal) ((c : Thread nD τ).loc main_v1) :=
  Cert.QuantLayer.layer (Fold.lhs m c) (Fold.rhs m c) (bias m c)

/-- At the last point of a run the running block is the step applied to the point's tiles and to what the point before
    left. -/
theorem running_eq (c : Dev nD) (t : Fin cfg0.N) (h0 : ¬t.val % 4 = 0) (h3 : t.val % 4 = 3) :
    (outsAt0 m c t.val t.isLt).2
      = k0_pay2 (F := Ideal) (iblk m c 0 t) (iblk m c 1 t) (outsAt0 m c (t.val - 1) (Nat.lt_of_le_of_lt (Nat.sub_le _ _) t.isLt)).2 := by
  rw [outsAt0_C m c t h0 h3]
  dsimp only
  exact Pieces.running_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3) (iblk m c 0 t) (iblk m c 1 t) (iblk m c 2 t)
    (outsAt0 m c (t.val - 1) (Nat.lt_of_le_of_lt (Nat.sub_le _ _) t.isLt)).2

/-- THE OUTPUT TILE at the last point `t` of a run, entry `y`: the layer's entry at row `1024·(t/16) + y 0`, column
    `1024·(t/4 mod 4) + y 1`. -/
theorem out_entry (c : Dev nD) (hr : Fold.RealInputs m c) (t : Fin cfg0.N) (h0 : ¬t.val % 4 = 0) (h3 : t.val % 4 = 3)
    (y : S1024x1024.Idx) :
    out0_C_3 c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h3) (iblk m c 0 t) (iblk m c 1 t) (iblk m c 2 t)
        (outsAt0 m c (t.val - 1) (Nat.lt_of_le_of_lt (Nat.sub_le _ _) t.isLt)).2 y
      = result m c (ix2 (Blocks.pos (t.val / 16) (Blocks.i_lt t) (y 0).val (idx2_lt0 y))
          (Blocks.pos (t.val / 4 % 4) (Blocks.j_lt t) (y 1).val (idx2_lt1 y))) := by
  obtain ⟨p, q, rfl⟩ : ∃ (p q : Fin 1024), y = ix2 p q := ⟨y 0, y 1, eq_ix2 y⟩
  refine (congrFun (Pieces.output_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3) (iblk m c 0 t) (iblk m c 1 t) (iblk m c 2 t)
    (outsAt0 m c (t.val - 1) (Nat.lt_of_le_of_lt (Nat.sub_le _ _) t.isLt)).2) (ix2 p q)).trans ?_
  refine (TileStep.epilogue_entry (k0_pay2 (F := Ideal) (iblk m c 0 t) (iblk m c 1 t) (outsAt0 m c (t.val - 1) (Nat.lt_of_le_of_lt (Nat.sub_le _ _) t.isLt)).2) (iblk m c 2 t) p q).trans ?_
  have e1 := (congrFun (running_eq m c t h0 h3) (ix2 p q)).symm.trans (Fold.scratch_after m c hr t h3 (ix2 p q))
  have e2 := congrFun (Blocks.bias_block m c t) (ix2 0 q)
  rw [e1, e2]
  rfl

/-- What a flushing point writes back is its block of the layer: the tile's entry `y` sits at that row and column. -/
theorem flushed_eq (c : Dev nD) (hr : Fold.RealInputs m c) (t : Fin cfg0.N) (hf : (cfg0.win 3).flush t = true) :
    (dats m 0 c).flushed 3 t = ((cfg0.win 3).blk t).view.read (Elt Ideal) (result m c) := by
  have h3 : t.val % 4 = 3 := (flush0_3 t).mp hf
  have h0 : ¬t.val % 4 = 0 := by omega
  rw [Value.flushed3_C m c t h0 h3]
  funext y
  refine Eq.trans ?_ (congrArg (result m c) (OutBlocks.out_emb t y)).symm
  exact out_entry m c hr t h0 h3 y

/-- The blocks written back tile the result, so after the run the whole array is the layer. -/
theorem final (c : Dev nD) (hr : Fold.RealInputs m c) : (dats m 0 c).arrAt 3 cfg0.N = result m c :=
  (dats m 0 c).arrAt_eq_of_cover 3 (result m c) (flushed_eq m c hr) OutBlocks.out_cover

/-- THE KERNEL'S RUN, read: every weakly fair execution terminates with the result array at the layer of the inputs and
    the inputs unchanged. -/
theorem run (hr : ∀ c, Fold.RealInputs m c) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c)), (h c).2⟩) (Value.run_blocks m ρ)

end Cert.KernelIdeal.Final

end
-- ==== Proof.lean ====
/- The proof of `Cert.Claim` for a tiled, quantized linear layer against its plain reference.

   Both programs compute, entry by entry, `quant (quant (∑ₖ A[r,k]·W[k,c]) + quant b[c])`, where `quant` rounds to the nearest
   multiple of 2⁻⁸ (ties to even). The reference takes the whole product at once. The kernel walks a 4×4×4 grid of
   1024-wide tiles, the contracted axis innermost, and keeps a running 1024×1024 block per output tile: zeroed at the
   first of the four steps, increased by the tile product at every step, rounded together with the bias at the last.
   It spells each tile product as three products of leading and remaining parts of the operands in a narrower float
   format; at the ideal reading a change of format is the identity, the remaining part of an operand is the operand
   minus itself, and that is zero because the inputs are finite — the one use of the precondition. What is left is that
   four partial sums over 1024 positions each are the sum over 4096 positions, which holds in any commutative monoid.

   The modules: Spec (the layer as one function), Pieces (what each control case of the body leaves, as functions of
   the loaded tiles), TileStep (the step and the epilogue at an entry, over the extended reals), Blocks and OutBlocks
   (which entries of which array a block holds at a grid point), RunSum (four tiles make the whole contracted axis),
   Fold (the running block after a run), Final (the result array after the kernel's run), FiniteInputs (the
   precondition read as "every entry is real"), RefLayer (the reference's run is the layer); LibMatmulSum and
   LibSumSplit are general lemmas. The frames and the two runs are the generated modules'. -/
import proofs.«105649_j2224793060101_2_alg».proof.Defs
import proofs.«105649_j2224793060101_2_alg».proof.Proof.Gen.Kernel
import proofs.«105649_j2224793060101_2_alg».proof.Proof.Gen.Kernel.Frame
import proofs.«105649_j2224793060101_2_alg».proof.Proof.Gen.KernelIdeal
import proofs.«105649_j2224793060101_2_alg».proof.Proof.Gen.KernelIdeal.Frame
import proofs.«105649_j2224793060101_2_alg».proof.Proof.Gen.KernelIdeal.Value
import proofs.«105649_j2224793060101_2_alg».proof.Proof.Gen.ReferenceIdeal
import proofs.«105649_j2224793060101_2_alg».proof.Proof.Gen.ReferenceIdeal.Run
import proofs.«105649_j2224793060101_2_alg».proof.Proof.Gen.ReferenceIdeal.Read
import proofs.«105649_j2224793060101_2_alg».proof.Proof.Gen.Pre_finite_inputs
import proofs.«105649_j2224793060101_2_alg».proof.Proof.FiniteInputs
import proofs.«105649_j2224793060101_2_alg».proof.Proof.RefLayer
import proofs.«105649_j2224793060101_2_alg».proof.Proof.Final
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization replaced, twice, a narrowing to the 16-bit format followed by the widening back with the operand
    itself: at the ideal reading that round trip is the identity. -/
theorem preserves : Cert.preserves_Kernel_KernelIdeal :=
  ⟨IdealRules.truncf_extf.statement Cert.KernelIdeal.S1024x1024 .f32 .bf16,
    IdealRules.truncf_extf.statement Cert.KernelIdeal.S1024x1024 .f32 .bf16⟩

/-- Under the precondition both programs end with the layer of the three inputs: the kernel by the fold of its runs
    (the inputs' entries are real numbers), the reference operation by operation. -/
theorem algebraic : Cert.algebraic_KernelIdeal_ReferenceIdeal := by
  intro m ρ m' ρ' hpre hagree
  have hr : ∀ c, Cert.KernelIdeal.Fold.RealInputs m c := fun c =>
    have h := Cert.FiniteInputs.real_of_pre _ _ _ (hpre c)
    ⟨h.1, h.2.1⟩
  refine ⟨fun c => Cert.KernelIdeal.Final.result m c, Cert.KernelIdeal.Final.run m ρ hr, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefLayer.ref_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
